-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x9x354x1218 : Shape := ⟨4, ![8, 9, 354, 1218]⟩
abbrev S8x1x352x1216 : Shape := ⟨4, ![8, 1, 352, 1216]⟩
abbrev S_ : Shape := ⟨0, ![]⟩

class Facts : Prop where
  bcast_S_S8x9x354x1218 : S_.BroadcastsInDim S8x9x354x1218 (![] : Fin 0 → Fin S8x9x354x1218.rank)
  reducesTo_S8x9x354x1218_S_d0_1_2_3 : S8x9x354x1218.ReducesTo [0, 1, 2, 3] S_
  h_S_ : 0 < S_.numel
  bcast_S_S8x1x352x1216 : S_.BroadcastsInDim S8x1x352x1216 (![] : Fin 0 → Fin S8x1x352x1216.rank)
  reducesTo_S8x1x352x1216_S_d0_1_2_3 : S8x1x352x1216.ReducesTo [0, 1, 2, 3] S_

variable [Facts]

def fn {F : FTy → Type} [FloatOps F] (main_arg0 : FVec F S8x9x354x1218 .f32) (main_arg1 : FVec F S8x1x352x1216 .f32) (main_arg2 : FVec F S8x1x352x1216 .f32) : IVec S_ 1 :=
  let main_v0 : FVec F S8x9x354x1218 .f32 := Host.absf main_arg0
  let main_cst : FVec F S_ .f32 := constant S_ .f32 0x7F800000#32
  let main_v1 : FVec F S8x9x354x1218 .f32 := broadcastInDim S8x9x354x1218 ![] bcast_S_S8x9x354x1218 main_cst
  let main_v2 : IVec S8x9x354x1218 1 := cmpf .olt main_v0 main_v1
  let main_c : IVec S_ 1 := constantI S_ 1 1#1
  let main_v3 : IVec S_ 1 := (fun x v => Host.reduce IntOp.andi x v reducesTo_S8x9x354x1218_S_d0_1_2_3 h_S_) main_v2 main_c
  let main_v4 : FVec F S8x1x352x1216 .f32 := Host.absf main_arg1
  let main_cst_0 : FVec F S_ .f32 := constant S_ .f32 0x7F800000#32
  let main_v5 : FVec F S8x1x352x1216 .f32 := broadcastInDim S8x1x352x1216 ![] bcast_S_S8x1x352x1216 main_cst_0
  let main_v6 : IVec S8x1x352x1216 1 := cmpf .olt main_v4 main_v5
  let main_c_1 : IVec S_ 1 := constantI S_ 1 1#1
  let main_v7 : IVec S_ 1 := (fun x v => Host.reduce IntOp.andi x v reducesTo_S8x1x352x1216_S_d0_1_2_3 h_S_) main_v6 main_c_1
  let main_v8 : IVec S_ 1 := andi main_v3 main_v7
  let main_v9 : FVec F S8x1x352x1216 .f32 := Host.absf main_arg2
  let main_cst_2 : FVec F S_ .f32 := constant S_ .f32 0x7F800000#32
  let main_v10 : FVec F S8x1x352x1216 .f32 := broadcastInDim S8x1x352x1216 ![] bcast_S_S8x1x352x1216 main_cst_2
  let main_v11 : IVec S8x1x352x1216 1 := cmpf .olt main_v9 main_v10
  let main_c_3 : IVec S_ 1 := constantI S_ 1 1#1
  let main_v12 : IVec S_ 1 := (fun x v => Host.reduce IntOp.andi x v reducesTo_S8x1x352x1216_S_d0_1_2_3 h_S_) main_v11 main_c_3
  let main_v13 : IVec S_ 1 := andi main_v8 main_v12
  main_v13
-- ==== Kernel.lean ====
abbrev S8x9x354x1218 : Shape := ⟨4, ![8, 9, 354, 1218]⟩
abbrev S8x1x352x1216 : Shape := ⟨4, ![8, 1, 352, 1216]⟩
abbrev S_ : Shape := ⟨0, ![]⟩
abbrev S8x1x356x1220 : Shape := ⟨4, ![8, 1, 356, 1220]⟩
abbrev S1x9x354x1218 : Shape := ⟨4, ![1, 9, 354, 1218]⟩
abbrev S1x1x356x1220 : Shape := ⟨4, ![1, 1, 356, 1220]⟩
abbrev S1x1x352x1216 : Shape := ⟨4, ![1, 1, 352, 1216]⟩
abbrev S1x1x354x1218 : Shape := ⟨4, ![1, 1, 354, 1218]⟩
abbrev S354x1218 : Shape := ⟨2, ![354, 1218]⟩
abbrev S352x1216 : Shape := ⟨2, ![352, 1216]⟩

abbrev nBuf : Space → Nat
  | .hbm => 10
  | .vmem => 8
  | .smem => 0
  | _ => 0

abbrev bufTy : (tb : Table) → Fin (tcTables nBuf tb) → BufTy
  | .hbm, ⟨0, _⟩ => ⟨S8x9x354x1218, .f32⟩
  | .hbm, ⟨1, _⟩ => ⟨S8x1x352x1216, .f32⟩
  | .hbm, ⟨2, _⟩ => ⟨S8x1x352x1216, .f32⟩
  | .hbm, ⟨3, _⟩ => ⟨S_, .i32⟩
  | .hbm, ⟨4, _⟩ => ⟨S_, .f32⟩
  | .hbm, ⟨5, _⟩ => ⟨S8x1x356x1220, .f32⟩
  | .hbm, ⟨6, _⟩ => ⟨S_, .i32⟩
  | .hbm, ⟨7, _⟩ => ⟨S_, .f32⟩
  | .hbm, ⟨8, _⟩ => ⟨S8x1x356x1220, .f32⟩
  | .hbm, ⟨9, _⟩ => ⟨S8x1x352x1216, .f32⟩
  | .local _ .vmem, ⟨0, _⟩ => ⟨S1x9x354x1218, .f32⟩
  | .local _ .vmem, ⟨1, _⟩ => ⟨S1x9x354x1218, .f32⟩
  | .local _ .vmem, ⟨2, _⟩ => ⟨S1x1x356x1220, .f32⟩
  | .local _ .vmem, ⟨3, _⟩ => ⟨S1x1x356x1220, .f32⟩
  | .local _ .vmem, ⟨4, _⟩ => ⟨S1x1x356x1220, .f32⟩
  | .local _ .vmem, ⟨5, _⟩ => ⟨S1x1x356x1220, .f32⟩
  | .local _ .vmem, ⟨6, _⟩ => ⟨S1x1x352x1216, .f32⟩
  | .local _ .vmem, ⟨7, _⟩ => ⟨S1x1x352x1216, .f32⟩
  | _, _ => ⟨S8x9x354x1218, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_c_0 : Ref sig .tc := ⟨.hbm, 6, rfl⟩
abbrev main_call1_v0 : Ref sig .tc := ⟨.hbm, 7, rfl⟩
abbrev main_v1 : Ref sig .tc := ⟨.hbm, 8, rfl⟩
abbrev main_v2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x9x354x1218 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x356x1220 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x356x1220 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x352x1216 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  pads_S8x1x352x1216_S8x1x356x1220_000_000_220_220 : S8x1x352x1216.Pads (![0, 0, 2, 2] : Fin 4 → Nat) ![0, 0, 2, 2] ![0, 0, 0, 0] S8x1x356x1220
  h_S_ : 0 < S_.numel
  inb_S1x1x356x1220_S1x1x354x1218_0_0_2_2 : ∀ a, (![0, 0, 2, 2] : Fin 4 → Nat) a + S1x1x354x1218.size a ≤ S1x1x356x1220.size a
  h_S1x1x354x1218 : 0 < S1x1x354x1218.numel
  shapeCasts_S1x1x354x1218_S354x1218 : S1x1x354x1218.ShapeCasts S354x1218
  inb_S1x9x354x1218_S1x1x354x1218_0_0_0_0 : ∀ a, (![0, 0, 0, 0] : Fin 4 → Nat) a + S1x1x354x1218.size a ≤ S1x9x354x1218.size a
  inb_S1x1x356x1220_S1x1x354x1218_0_0_2_1 : ∀ a, (![0, 0, 2, 1] : Fin 4 → Nat) a + S1x1x354x1218.size a ≤ S1x1x356x1220.size a
  inb_S1x9x354x1218_S1x1x354x1218_0_1_0_0 : ∀ a, (![0, 1, 0, 0] : Fin 4 → Nat) a + S1x1x354x1218.size a ≤ S1x9x354x1218.size a
  inb_S1x1x356x1220_S1x1x354x1218_0_0_2_0 : ∀ a, (![0, 0, 2, 0] : Fin 4 → Nat) a + S1x1x354x1218.size a ≤ S1x1x356x1220.size a
  inb_S1x9x354x1218_S1x1x354x1218_0_2_0_0 : ∀ a, (![0, 2, 0, 0] : Fin 4 → Nat) a + S1x1x354x1218.size a ≤ S1x9x354x1218.size a
  inb_S1x1x356x1220_S1x1x354x1218_0_0_1_2 : ∀ a, (![0, 0, 1, 2] : Fin 4 → Nat) a + S1x1x354x1218.size a ≤ S1x1x356x1220.size a
  inb_S1x9x354x1218_S1x1x354x1218_0_3_0_0 : ∀ a, (![0, 3, 0, 0] : Fin 4 → Nat) a + S1x1x354x1218.size a ≤ S1x9x354x1218.size a
  inb_S1x1x356x1220_S1x1x354x1218_0_0_1_1 : ∀ a, (![0, 0, 1, 1] : Fin 4 → Nat) a + S1x1x354x1218.size a ≤ S1x1x356x1220.size a
  inb_S1x9x354x1218_S1x1x354x1218_0_4_0_0 : ∀ a, (![0, 4, 0, 0] : Fin 4 → Nat) a + S1x1x354x1218.size a ≤ S1x9x354x1218.size a
  inb_S1x1x356x1220_S1x1x354x1218_0_0_1_0 : ∀ a, (![0, 0, 1, 0] : Fin 4 → Nat) a + S1x1x354x1218.size a ≤ S1x1x356x1220.size a
  inb_S1x9x354x1218_S1x1x354x1218_0_5_0_0 : ∀ a, (![0, 5, 0, 0] : Fin 4 → Nat) a + S1x1x354x1218.size a ≤ S1x9x354x1218.size a
  inb_S1x1x356x1220_S1x1x354x1218_0_0_0_2 : ∀ a, (![0, 0, 0, 2] : Fin 4 → Nat) a + S1x1x354x1218.size a ≤ S1x1x356x1220.size a
  inb_S1x9x354x1218_S1x1x354x1218_0_6_0_0 : ∀ a, (![0, 6, 0, 0] : Fin 4 → Nat) a + S1x1x354x1218.size a ≤ S1x9x354x1218.size a
  inb_S1x1x356x1220_S1x1x354x1218_0_0_0_1 : ∀ a, (![0, 0, 0, 1] : Fin 4 → Nat) a + S1x1x354x1218.size a ≤ S1x1x356x1220.size a
  inb_S1x9x354x1218_S1x1x354x1218_0_7_0_0 : ∀ a, (![0, 7, 0, 0] : Fin 4 → Nat) a + S1x1x354x1218.size a ≤ S1x9x354x1218.size a
  inb_S1x1x356x1220_S1x1x354x1218_0_0_0_0 : ∀ a, (![0, 0, 0, 0] : Fin 4 → Nat) a + S1x1x354x1218.size a ≤ S1x1x356x1220.size a
  inb_S1x9x354x1218_S1x1x354x1218_0_8_0_0 : ∀ a, (![0, 8, 0, 0] : Fin 4 → Nat) a + S1x1x354x1218.size a ≤ S1x9x354x1218.size a
  slices_S354x1218_o1_1_S352x1216 : S354x1218.Slices ![1, 1] S352x1216
  inb_S1x1x352x1216_S1x1x352x1216_0_0_0_0 : ∀ a, (![0, 0, 0, 0] : Fin 4 → Nat) a + S1x1x352x1216.size a ≤ S1x1x352x1216.size a
  h_S1x1x352x1216 : 0 < S1x1x352x1216.numel
  shapeCasts_S1x1x352x1216_S352x1216 : S1x1x352x1216.ShapeCasts S352x1216
  shapeCasts_S352x1216_S1x1x352x1216 : S352x1216.ShapeCasts S1x1x352x1216
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x9x354x1218.size a ≤ S8x9x354x1218.size a
  hwx0_0 : ∀ i : grid0.Coords, EltTy.bits .f32 = 32 ∨ (Rect.block (s := S8x9x354x1218) S1x9x354x1218.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x356x1220.size a ≤ S8x1x356x1220.size a
  hwx0_1 : ∀ i : grid0.Coords, EltTy.bits .f32 = 32 ∨ (Rect.block (s := S8x1x356x1220) S1x1x356x1220.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x356x1220.size a ≤ S8x1x356x1220.size a
  hwx0_2 : ∀ i : grid0.Coords, EltTy.bits .f32 = 32 ∨ (Rect.block (s := S8x1x356x1220) S1x1x356x1220.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x352x1216.size a ≤ S8x1x352x1216.size a
  hwx0_3 : ∀ i : grid0.Coords, EltTy.bits .f32 = 32 ∨ (Rect.block (s := S8x1x352x1216) S1x1x352x1216.size (cc0_transform_3 i) (hinb0_3 i)).WholeWords (EltTy.packing .f32)

variable [Facts₀]

abbrev win0_0 : Pipeline.Window sig grid0 :=
  Pipeline.Window.ofSpec (Memref.whole main_arg0) S1x9x354x1218.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x1x356x1220.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x1x356x1220.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x1x352x1216.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8x9x354x1218 : Shape := ⟨4, ![8, 9, 354, 1218]⟩
abbrev S8x1x352x1216 : Shape := ⟨4, ![8, 1, 352, 1216]⟩
abbrev S_ : Shape := ⟨0, ![]⟩
abbrev S8x1x354x1218 : Shape := ⟨4, ![8, 1, 354, 1218]⟩
abbrev S8x354x1218 : Shape := ⟨3, ![8, 354, 1218]⟩
abbrev S8x352x1216 : Shape := ⟨3, ![8, 352, 1216]⟩

abbrev nBuf : Space → Nat
  | .hbm => 54
  | .vmem => 0
  | .smem => 0
  | _ => 0

abbrev bufTy : (tb : Table) → Fin (tcTables nBuf tb) → BufTy
  | .hbm, ⟨0, _⟩ => ⟨S8x9x354x1218, .f32⟩
  | .hbm, ⟨1, _⟩ => ⟨S8x1x352x1216, .f32⟩
  | .hbm, ⟨2, _⟩ => ⟨S8x1x352x1216, .f32⟩
  | .hbm, ⟨3, _⟩ => ⟨S_, .i32⟩
  | .hbm, ⟨4, _⟩ => ⟨S_, .f32⟩
  | .hbm, ⟨5, _⟩ => ⟨S8x1x354x1218, .f32⟩
  | .hbm, ⟨6, _⟩ => ⟨S8x354x1218, .f32⟩
  | .hbm, ⟨7, _⟩ => ⟨S_, .i32⟩
  | .hbm, ⟨8, _⟩ => ⟨S_, .f32⟩
  | .hbm, ⟨9, _⟩ => ⟨S8x1x354x1218, .f32⟩
  | .hbm, ⟨10, _⟩ => ⟨S8x354x1218, .f32⟩
  | .hbm, ⟨11, _⟩ => ⟨S_, .i32⟩
  | .hbm, ⟨12, _⟩ => ⟨S_, .f32⟩
  | .hbm, ⟨13, _⟩ => ⟨S8x1x354x1218, .f32⟩
  | .hbm, ⟨14, _⟩ => ⟨S8x354x1218, .f32⟩
  | .hbm, ⟨15, _⟩ => ⟨S_, .i32⟩
  | .hbm, ⟨16, _⟩ => ⟨S_, .f32⟩
  | .hbm, ⟨17, _⟩ => ⟨S8x1x354x1218, .f32⟩
  | .hbm, ⟨18, _⟩ => ⟨S8x354x1218, .f32⟩
  | .hbm, ⟨19, _⟩ => ⟨S_, .i32⟩
  | .hbm, ⟨20, _⟩ => ⟨S_, .f32⟩
  | .hbm, ⟨21, _⟩ => ⟨S8x1x354x1218, .f32⟩
  | .hbm, ⟨22, _⟩ => ⟨S8x354x1218, .f32⟩
  | .hbm, ⟨23, _⟩ => ⟨S_, .i32⟩
  | .hbm, ⟨24, _⟩ => ⟨S_, .f32⟩
  | .hbm, ⟨25, _⟩ => ⟨S8x1x354x1218, .f32⟩
  | .hbm, ⟨26, _⟩ => ⟨S8x354x1218, .f32⟩
  | .hbm, ⟨27, _⟩ => ⟨S_, .i32⟩
  | .hbm, ⟨28, _⟩ => ⟨S_, .f32⟩
  | .hbm, ⟨29, _⟩ => ⟨S8x1x354x1218, .f32⟩
  | .hbm, ⟨30, _⟩ => ⟨S8x354x1218, .f32⟩
  | .hbm, ⟨31, _⟩ => ⟨S_, .i32⟩
  | .hbm, ⟨32, _⟩ => ⟨S_, .f32⟩
  | .hbm, ⟨33, _⟩ => ⟨S8x1x354x1218, .f32⟩
  | .hbm, ⟨34, _⟩ => ⟨S8x354x1218, .f32⟩
  | .hbm, ⟨35, _⟩ => ⟨S_, .i32⟩
  | .hbm, ⟨36, _⟩ => ⟨S_, .f32⟩
  | .hbm, ⟨37, _⟩ => ⟨S8x1x354x1218, .f32⟩
  | .hbm, ⟨38, _⟩ => ⟨S8x354x1218, .f32⟩
  | .hbm, ⟨39, _⟩ => ⟨S8x1x354x1218, .f32⟩
  | .hbm, ⟨40, _⟩ => ⟨S8x1x354x1218, .f32⟩
  | .hbm, ⟨41, _⟩ => ⟨S8x1x354x1218, .f32⟩
  | .hbm, ⟨42, _⟩ => ⟨S8x1x354x1218, .f32⟩
  | .hbm, ⟨43, _⟩ => ⟨S8x1x354x1218, .f32⟩
  | .hbm, ⟨44, _⟩ => ⟨S8x1x354x1218, .f32⟩
  | .hbm, ⟨45, _⟩ => ⟨S8x1x354x1218, .f32⟩
  | .hbm, ⟨46, _⟩ => ⟨S8x1x354x1218, .f32⟩
  | .hbm, ⟨47, _⟩ => ⟨S8x1x354x1218, .f32⟩
  | .hbm, ⟨48, _⟩ => ⟨S8x9x354x1218, .f32⟩
  | .hbm, ⟨49, _⟩ => ⟨S8x9x354x1218, .f32⟩
  | .hbm, ⟨50, _⟩ => ⟨S_, .f32⟩
  | .hbm, ⟨51, _⟩ => ⟨S8x354x1218, .f32⟩
  | .hbm, ⟨52, _⟩ => ⟨S8x352x1216, .f32⟩
  | .hbm, ⟨53, _⟩ => ⟨S8x1x352x1216, .f32⟩
  | _, _ => ⟨S8x9x354x1218, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_call1_v0 : Ref sig .tc := ⟨.hbm, 8, rfl⟩
abbrev main_v2 : Ref sig .tc := ⟨.hbm, 9, rfl⟩
abbrev main_v3 : Ref sig .tc := ⟨.hbm, 10, rfl⟩
abbrev main_c_1 : Ref sig .tc := ⟨.hbm, 11, rfl⟩
abbrev main_call2_v0 : Ref sig .tc := ⟨.hbm, 12, rfl⟩
abbrev main_v4 : Ref sig .tc := ⟨.hbm, 13, rfl⟩
abbrev main_v5 : Ref sig .tc := ⟨.hbm, 14, rfl⟩
abbrev main_c_2 : Ref sig .tc := ⟨.hbm, 15, rfl⟩
abbrev main_call3_v0 : Ref sig .tc := ⟨.hbm, 16, rfl⟩
abbrev main_v6 : Ref sig .tc := ⟨.hbm, 17, rfl⟩
abbrev main_v7 : Ref sig .tc := ⟨.hbm, 18, rfl⟩
abbrev main_c_3 : Ref sig .tc := ⟨.hbm, 19, rfl⟩
abbrev main_call4_v0 : Ref sig .tc := ⟨.hbm, 20, rfl⟩
abbrev main_v8 : Ref sig .tc := ⟨.hbm, 21, rfl⟩
abbrev main_v9 : Ref sig .tc := ⟨.hbm, 22, rfl⟩
abbrev main_c_4 : Ref sig .tc := ⟨.hbm, 23, rfl⟩
abbrev main_call5_v0 : Ref sig .tc := ⟨.hbm, 24, rfl⟩
abbrev main_v10 : Ref sig .tc := ⟨.hbm, 25, rfl⟩
abbrev main_v11 : Ref sig .tc := ⟨.hbm, 26, rfl⟩
abbrev main_c_5 : Ref sig .tc := ⟨.hbm, 27, rfl⟩
abbrev main_call6_v0 : Ref sig .tc := ⟨.hbm, 28, rfl⟩
abbrev main_v12 : Ref sig .tc := ⟨.hbm, 29, rfl⟩
abbrev main_v13 : Ref sig .tc := ⟨.hbm, 30, rfl⟩
abbrev main_c_6 : Ref sig .tc := ⟨.hbm, 31, rfl⟩
abbrev main_call7_v0 : Ref sig .tc := ⟨.hbm, 32, rfl⟩
abbrev main_v14 : Ref sig .tc := ⟨.hbm, 33, rfl⟩
abbrev main_v15 : Ref sig .tc := ⟨.hbm, 34, rfl⟩
abbrev main_c_7 : Ref sig .tc := ⟨.hbm, 35, rfl⟩
abbrev main_call8_v0 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_cst : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩

abbrev nD : Nat := 1
abbrev τ : Topo := Topo.v7x

variable {F : FTy → Type} [FloatOps F]

class Facts₀ : Prop where
  pads_S8x1x352x1216_S8x1x354x1218_000_000_020_020 : S8x1x352x1216.Pads (![0, 0, 0, 0] : Fin 4 → Nat) ![0, 0, 2, 2] ![0, 0, 0, 0] S8x1x354x1218
  h_S_ : 0 < S_.numel
  shapeCasts_S8x1x354x1218_S8x354x1218 : S8x1x354x1218.ShapeCasts S8x354x1218
  pads_S8x1x352x1216_S8x1x354x1218_000_000_020_110 : S8x1x352x1216.Pads (![0, 0, 0, 1] : Fin 4 → Nat) ![0, 0, 2, 1] ![0, 0, 0, 0] S8x1x354x1218
  pads_S8x1x352x1216_S8x1x354x1218_000_000_020_200 : S8x1x352x1216.Pads (![0, 0, 0, 2] : Fin 4 → Nat) ![0, 0, 2, 0] ![0, 0, 0, 0] S8x1x354x1218
  pads_S8x1x352x1216_S8x1x354x1218_000_000_110_020 : S8x1x352x1216.Pads (![0, 0, 1, 0] : Fin 4 → Nat) ![0, 0, 1, 2] ![0, 0, 0, 0] S8x1x354x1218
  pads_S8x1x352x1216_S8x1x354x1218_000_000_110_110 : S8x1x352x1216.Pads (![0, 0, 1, 1] : Fin 4 → Nat) ![0, 0, 1, 1] ![0, 0, 0, 0] S8x1x354x1218
  pads_S8x1x352x1216_S8x1x354x1218_000_000_110_200 : S8x1x352x1216.Pads (![0, 0, 1, 2] : Fin 4 → Nat) ![0, 0, 1, 0] ![0, 0, 0, 0] S8x1x354x1218
  pads_S8x1x352x1216_S8x1x354x1218_000_000_200_020 : S8x1x352x1216.Pads (![0, 0, 2, 0] : Fin 4 → Nat) ![0, 0, 0, 2] ![0, 0, 0, 0] S8x1x354x1218
  pads_S8x1x352x1216_S8x1x354x1218_000_000_200_110 : S8x1x352x1216.Pads (![0, 0, 2, 1] : Fin 4 → Nat) ![0, 0, 0, 1] ![0, 0, 0, 0] S8x1x354x1218
  pads_S8x1x352x1216_S8x1x354x1218_000_000_200_200 : S8x1x352x1216.Pads (![0, 0, 2, 2] : Fin 4 → Nat) ![0, 0, 0, 0] ![0, 0, 0, 0] S8x1x354x1218
  bcast_S8x354x1218_S8x1x354x1218_0_2_3 : S8x354x1218.BroadcastsInDim S8x1x354x1218 (![0, 2, 3] : Fin 3 → Fin S8x1x354x1218.rank)
  concatenates_S8x1x354x1218_S8x1x354x1218_S8x1x354x1218_S8x1x354x1218_S8x1x354x1218_S8x1x354x1218_S8x1x354x1218_S8x1x354x1218_S8x1x354x1218_S8x9x354x1218_d1 : Shape.Concatenates [S8x1x354x1218, S8x1x354x1218, S8x1x354x1218, S8x1x354x1218, S8x1x354x1218, S8x1x354x1218, S8x1x354x1218, S8x1x354x1218, S8x1x354x1218] S8x9x354x1218 1
  reducesTo_S8x9x354x1218_S8x354x1218_d1 : S8x9x354x1218.ReducesTo [1] S8x354x1218
  slices_S8x354x1218_S8x352x1216_0_1_1 : S8x354x1218.Slices ![0, 1, 1] S8x352x1216
  bcast_S8x352x1216_S8x1x352x1216_0_2_3 : S8x352x1216.BroadcastsInDim S8x1x352x1216 (![0, 2, 3] : Fin 3 → Fin S8x1x352x1216.rank)

variable [Facts₀]

class Facts : Prop extends Facts₀ where

variable [Facts]
-- ==== Proof.KernelPayload.lean ====
/-
  The kernel body's arithmetic read at one position of the 354 × 1218 frame.

  The body loads nine guidance planes and nine windows of the padded sources, each a [1, 1, 354, 1218] block, drops
  the two unit axes, multiplies plane by window, adds the nine products one after the other, and keeps the inner
  352 × 1216 positions. So at output pixel `(r, s)` the stored value is the sum, in the order the body adds them, of
  the nine products of the loaded blocks at frame position `(r + 1, s + 1)`. The generated skeleton splits this
  arithmetic over four pure terms; each is read here at an index, at the ideal values where `addf` and `mulf` are
  the extended reals' `+` and `·`.
-/
import proofs.«180167_j37056977830363_2_alg».proof.Proof.Gen.KernelIdeal.Skeleton
import Idealize.ShloMosaic.Lib.Pipeline.Value
import Idealize.ShloMosaic.Lib.ValueIdx

noncomputable section

namespace Cert.Cspn.Kern

open Cert.KernelIdeal Cert.KernelIdeal.Gen Idealize.ShloMosaic Idealize.ShloMosaic.ValueIdx

/-- Output row `r` sits at frame row `r + 1`. -/
abbrev rowOf (r : Fin 352) : Fin 354 := ⟨r.val + 1, by have := r.isLt; omega⟩
/-- Output column `s` sits at frame column `s + 1`. -/
abbrev colOf (s : Fin 1216) : Fin 1218 := ⟨s.val + 1, by have := s.isLt; omega⟩

/-- A [1, 1, 354, 1218] block with its two unit axes dropped, read at frame position `(R, C)`, is the block at
    `(0, 0, R, C)`. -/
theorem plane_apply (Q : S1x1x354x1218.Idx → EReal) (R : Fin 354) (C : Fin 1218) :
    shapeCast S354x1218 Q shapeCasts_S1x1x354x1218_S354x1218 (ix2 R C) = Q (ix4 (0 : Fin 1) (0 : Fin 1) R C) :=
  shapeCast_apply Q shapeCasts_S1x1x354x1218_S354x1218 (ix2 R C) (ix4 (0 : Fin 1) (0 : Fin 1) R C) (by
    rw [Shape.rowMajor_val_four, Shape.rowMajor_val_two]
    show ((0 * 1 + 0) * 354 + R.val) * 1218 + C.val = R.val * 1218 + C.val
    omega)

/-- The first four products, added in order. -/
theorem pay2_apply (v0 v2 v5 v7 v11 v13 v17 v19 : S1x1x354x1218.Idx → EReal) (R : Fin 354) (C : Fin 1218) :
    k0_pay2 (F := Ideal) v0 v2 v5 v7 v11 v13 v17 v19 (ix2 R C)
      = v2 (ix4 (0 : Fin 1) (0 : Fin 1) R C) * v0 (ix4 (0 : Fin 1) (0 : Fin 1) R C) + v7 (ix4 (0 : Fin 1) (0 : Fin 1) R C) * v5 (ix4 (0 : Fin 1) (0 : Fin 1) R C) + v13 (ix4 (0 : Fin 1) (0 : Fin 1) R C) * v11 (ix4 (0 : Fin 1) (0 : Fin 1) R C) + v19 (ix4 (0 : Fin 1) (0 : Fin 1) R C) * v17 (ix4 (0 : Fin 1) (0 : Fin 1) R C) := by
  show shapeCast S354x1218 v2 shapeCasts_S1x1x354x1218_S354x1218 (ix2 R C)
        * shapeCast S354x1218 v0 shapeCasts_S1x1x354x1218_S354x1218 (ix2 R C)
      + shapeCast S354x1218 v7 shapeCasts_S1x1x354x1218_S354x1218 (ix2 R C)
        * shapeCast S354x1218 v5 shapeCasts_S1x1x354x1218_S354x1218 (ix2 R C)
      + shapeCast S354x1218 v13 shapeCasts_S1x1x354x1218_S354x1218 (ix2 R C)
        * shapeCast S354x1218 v11 shapeCasts_S1x1x354x1218_S354x1218 (ix2 R C)
      + shapeCast S354x1218 v19 shapeCasts_S1x1x354x1218_S354x1218 (ix2 R C)
        * shapeCast S354x1218 v17 shapeCasts_S1x1x354x1218_S354x1218 (ix2 R C) = _
  simp only [plane_apply]

/-- The next four products, added in order onto what came before. -/
theorem pay3_apply (v22 : S354x1218.Idx → EReal) (v23 v25 v29 v31 v35 v37 v41 v43 : S1x1x354x1218.Idx → EReal)
    (R : Fin 354) (C : Fin 1218) :
    k0_pay3 (F := Ideal) v22 v23 v25 v29 v31 v35 v37 v41 v43 (ix2 R C)
      = v22 (ix2 R C) + v25 (ix4 (0 : Fin 1) (0 : Fin 1) R C) * v23 (ix4 (0 : Fin 1) (0 : Fin 1) R C) + v31 (ix4 (0 : Fin 1) (0 : Fin 1) R C) * v29 (ix4 (0 : Fin 1) (0 : Fin 1) R C) + v37 (ix4 (0 : Fin 1) (0 : Fin 1) R C) * v35 (ix4 (0 : Fin 1) (0 : Fin 1) R C) + v43 (ix4 (0 : Fin 1) (0 : Fin 1) R C) * v41 (ix4 (0 : Fin 1) (0 : Fin 1) R C) := by
  show v22 (ix2 R C)
      + shapeCast S354x1218 v25 shapeCasts_S1x1x354x1218_S354x1218 (ix2 R C)
        * shapeCast S354x1218 v23 shapeCasts_S1x1x354x1218_S354x1218 (ix2 R C)
      + shapeCast S354x1218 v31 shapeCasts_S1x1x354x1218_S354x1218 (ix2 R C)
        * shapeCast S354x1218 v29 shapeCasts_S1x1x354x1218_S354x1218 (ix2 R C)
      + shapeCast S354x1218 v37 shapeCasts_S1x1x354x1218_S354x1218 (ix2 R C)
        * shapeCast S354x1218 v35 shapeCasts_S1x1x354x1218_S354x1218 (ix2 R C)
      + shapeCast S354x1218 v43 shapeCasts_S1x1x354x1218_S354x1218 (ix2 R C)
        * shapeCast S354x1218 v41 shapeCasts_S1x1x354x1218_S354x1218 (ix2 R C) = _
  simp only [plane_apply]

/-- The last window with its unit axes dropped. -/
theorem pay4_apply (v47 : S1x1x354x1218.Idx → EReal) (R : Fin 354) (C : Fin 1218) :
    k0_pay4 (F := Ideal) v47 (ix2 R C) = v47 (ix4 (0 : Fin 1) (0 : Fin 1) R C) :=
  plane_apply v47 R C

/-- The ninth product added on, and the cut to the inner pixels: output pixel `(r, s)` reads frame position
    `(r + 1, s + 1)`. -/
theorem pay1_apply (v46 v48 : S354x1218.Idx → EReal) (v49 : S1x1x354x1218.Idx → EReal) (a b : Fin 1) (r : Fin 352)
    (s : Fin 1216) :
    k0_pay1 (F := Ideal) v46 v48 v49 (ix4 a b r s)
      = v46 (ix2 (rowOf r) (colOf s))
        + v49 (ix4 (0 : Fin 1) (0 : Fin 1) (rowOf r) (colOf s)) * v48 (ix2 (rowOf r) (colOf s)) := by
  show shapeCast S1x1x352x1216 (extractStridedSlice S352x1216 ![1, 1]
      (addf (F := Ideal) (φ := .f32) v46 (mulf (F := Ideal) (φ := .f32) (shapeCast S354x1218 v49 shapeCasts_S1x1x354x1218_S354x1218) v48))
      slices_S354x1218_o1_1_S352x1216)
      shapeCasts_S352x1216_S1x1x352x1216 (ix4 a b r s) = _
  refine (shapeCast_apply _ shapeCasts_S352x1216_S1x1x352x1216 (ix4 a b r s) (ix2 r s) (by
    rw [Shape.rowMajor_val_two, Shape.rowMajor_val_four]
    show r.val * 1216 + s.val = ((a.val * 1 + b.val) * 352 + r.val) * 1216 + s.val
    have := a.isLt; have := b.isLt; omega)).trans ?_
  refine (extractStridedSlice_apply ![1, 1] _ slices_S354x1218_o1_1_S352x1216 (ix2 r s) (ix2 (rowOf r) (colOf s))
    (fun d => match d with
      | ⟨0, _⟩ => by show r.val + 1 = 1 + r.val; omega
      | ⟨1, _⟩ => by show s.val + 1 = 1 + s.val; omega)).trans ?_
  show v46 (ix2 (rowOf r) (colOf s))
      + shapeCast S354x1218 v49 shapeCasts_S1x1x354x1218_S354x1218 (ix2 (rowOf r) (colOf s)) * v48 (ix2 (rowOf r) (colOf s)) = _
  rw [plane_apply]

end Cert.Cspn.Kern

end
-- ==== Proof.KernelBlock.lean ====
/-
  What the kernel body leaves in the output block, read at one pixel.

  The body's one store covers the whole [1, 1, 352, 1216] block, so the block after the body IS the stored value
  (the generated frame names it `out0_3`, a function of the three input blocks). At pixel `(r, s)` it is the sum, in
  the body's order, of nine products: guidance plane `k` of the first block at frame position `(r + 1, s + 1)` times
  a window of a padded source block at the same frame position — the window's offset inside the padded block is the
  load rectangle's offset `(2 − i, 2 − j)` for slot `k = 3 i + j`, and the centre slot reads the second source.
-/
import proofs.«180167_j37056977830363_2_alg».proof.Proof.Gen.KernelIdeal.Frame
import proofs.«180167_j37056977830363_2_alg».proof.Proof.KernelPayload

noncomputable section

namespace Cert.Cspn.Kern

open Cert.KernelIdeal Cert.KernelIdeal.Gen Idealize.ShloMosaic Idealize.ShloMosaic.ValueIdx

/-- The store's offsets are all zero. -/
theorem hz : (![0, 0, 0, 0] : Fin 4 → Nat) = fun _ => 0 := funext fun a => by fin_cases a <;> rfl

/-- THE BLOCK AT A PIXEL: the nine products of the loaded planes and windows at frame position `(r + 1, s + 1)`,
    added in the body's order. Stated over arbitrary input blocks. -/
theorem out_apply (X0 : S1x9x354x1218.Idx → EReal) (X1 X2 : S1x1x356x1220.Idx → EReal) (a b : Fin 1) (r : Fin 352)
    (s : Fin 1216) :
    out0_3 (F := Ideal) X0 X1 X2 (ix4 a b r s)
      = X0 (r0_1.idx (ix4 (0 : Fin 1) (0 : Fin 1) (rowOf r) (colOf s))) * X1 (r0_0.idx (ix4 (0 : Fin 1) (0 : Fin 1) (rowOf r) (colOf s)))
        + X0 (r0_3.idx (ix4 (0 : Fin 1) (0 : Fin 1) (rowOf r) (colOf s))) * X1 (r0_2.idx (ix4 (0 : Fin 1) (0 : Fin 1) (rowOf r) (colOf s)))
        + X0 (r0_5.idx (ix4 (0 : Fin 1) (0 : Fin 1) (rowOf r) (colOf s))) * X1 (r0_4.idx (ix4 (0 : Fin 1) (0 : Fin 1) (rowOf r) (colOf s)))
        + X0 (r0_7.idx (ix4 (0 : Fin 1) (0 : Fin 1) (rowOf r) (colOf s))) * X1 (r0_6.idx (ix4 (0 : Fin 1) (0 : Fin 1) (rowOf r) (colOf s)))
        + X0 (r0_9.idx (ix4 (0 : Fin 1) (0 : Fin 1) (rowOf r) (colOf s))) * X2 (r0_8.idx (ix4 (0 : Fin 1) (0 : Fin 1) (rowOf r) (colOf s)))
        + X0 (r0_11.idx (ix4 (0 : Fin 1) (0 : Fin 1) (rowOf r) (colOf s))) * X1 (r0_10.idx (ix4 (0 : Fin 1) (0 : Fin 1) (rowOf r) (colOf s)))
        + X0 (r0_13.idx (ix4 (0 : Fin 1) (0 : Fin 1) (rowOf r) (colOf s))) * X1 (r0_12.idx (ix4 (0 : Fin 1) (0 : Fin 1) (rowOf r) (colOf s)))
        + X0 (r0_15.idx (ix4 (0 : Fin 1) (0 : Fin 1) (rowOf r) (colOf s))) * X1 (r0_14.idx (ix4 (0 : Fin 1) (0 : Fin 1) (rowOf r) (colOf s)))
        + X0 (r0_17.idx (ix4 (0 : Fin 1) (0 : Fin 1) (rowOf r) (colOf s))) * X1 (r0_16.idx (ix4 (0 : Fin 1) (0 : Fin 1) (rowOf r) (colOf s))) := by
  unfold out0_3
  rw [View.canon_unit_zero hz]
  rw [pay1_apply, pay3_apply, pay2_apply, pay4_apply]

end Cert.Cspn.Kern

end
-- ==== Proof.Spec.lean ====
/-
  The propagation step as ONE function of the three argument arrays, index by index.

  For a batch `b` and an output pixel `(r, s)` of the 352 × 1216 plane the result is the nine-term sum

      ∑ t = 3 i + j,  guide (b, t, r + 1, s + 1) · slot_t (b, r + 1, s + 1),

  where slot `t` is a source plane — `h0` for the centre slot `t = 4`, `hn` for the eight others — moved down by
  `i` rows and right by `j` columns inside a 354 × 1218 frame and filled with the padding value `z` outside the moved
  plane. The two programs build the nine moved planes differently (one pads each slot by its own amounts; the other
  pads both sources once by two on every side and reads nine windows of that), and they add the nine products in
  different groupings; a moved plane read at a frame position is the same `if` either way, compared here by arithmetic
  on its condition (`shifted_eq_of`), and a sum of nine extended reals does not depend on the grouping.
-/
import Idealize.ShloMosaic.PureOps.Ideal
import Idealize.ShloMosaic.Lib.ValueIdx

noncomputable section

open scoped BigOperators

namespace Cert.Cspn

open Idealize.ShloMosaic Idealize.ShloMosaic.ValueIdx

/-- The guidance weights' shape: batch, nine slots, the 354 × 1218 frame. -/
abbrev GuideS : Shape := ⟨4, ![8, 9, 354, 1218]⟩
/-- A source plane's (and the result's) shape: batch, one channel, 352 × 1216. -/
abbrev PlaneS : Shape := ⟨4, ![8, 1, 352, 1216]⟩

/-- The plane `src` of batch `b` moved down by `l2` rows and right by `l3` columns, read at row `R`, column `C`:
    the entry `(R − l2, C − l3)` where that is inside the 352 × 1216 plane, the padding value `z` elsewhere. -/
def shifted (src : PlaneS.Idx → EReal) (z : EReal) (b : Fin 8) (l2 l3 R C : Nat) : EReal :=
  if h : (l2 ≤ R ∧ R - l2 < 352) ∧ (l3 ≤ C ∧ C - l3 < 1216) then
    src (ix4 b 0 ⟨R - l2, h.1.2⟩ ⟨C - l3, h.2.2⟩)
  else z

/-- Moving the plane further and reading it further along by the same amount reads the same entry: the value depends
    only on `R − l2` and `C − l3` (as integers). -/
theorem shifted_eq_of {src : PlaneS.Idx → EReal} {z : EReal} {b : Fin 8} {l2 l3 R C l2' l3' R' C' : Nat}
    (hR : R' + l2 = R + l2') (hC : C' + l3 = C + l3') :
    shifted src z b l2' l3' R' C' = shifted src z b l2 l3 R C := by
  unfold shifted
  by_cases h : (l2 ≤ R ∧ R - l2 < 352) ∧ (l3 ≤ C ∧ C - l3 < 1216)
  · have h' : (l2' ≤ R' ∧ R' - l2' < 352) ∧ (l3' ≤ C' ∧ C' - l3' < 1216) := by omega
    rw [dif_pos h, dif_pos h']
    have e1 : (⟨R' - l2', h'.1.2⟩ : Fin 352) = ⟨R - l2, h.1.2⟩ := Fin.ext (by show R' - l2' = R - l2; omega)
    have e2 : (⟨C' - l3', h'.2.2⟩ : Fin 1216) = ⟨C - l3, h.2.2⟩ := Fin.ext (by show C' - l3' = C - l3; omega)
    rw [e1, e2]
  · have h' : ¬((l2' ≤ R' ∧ R' - l2' < 352) ∧ (l3' ≤ C' ∧ C' - l3' < 1216)) := by omega
    rw [dif_neg h, dif_neg h']

/-- Slot `t = 3 i + j` of the stack at frame position `(R, C)` of batch `b`: the centre slot holds `h0`, every other
    slot `hn`, moved down by `i = t / 3` rows and right by `j = t % 3` columns. -/
def slot (hn h0 : PlaneS.Idx → EReal) (z : EReal) (t : Fin 9) (b : Fin 8) (R C : Nat) : EReal :=
  shifted (if t.val = 4 then h0 else hn) z b (t.val / 3) (t.val % 3) R C

/-- The result at batch `b`, pixel `(r, s)`: the nine products of a guidance weight and its slot at frame position
    `(r + 1, s + 1)`, added. -/
def Gat (guide : GuideS.Idx → EReal) (hn h0 : PlaneS.Idx → EReal) (z : EReal) (b : Fin 8) (r : Fin 352) (s : Fin 1216) :
    EReal :=
  ∑ t : Fin 9, guide (ix4 b t ⟨r.val + 1, by have := r.isLt; omega⟩ ⟨s.val + 1, by have := s.isLt; omega⟩)
    * slot hn h0 z t b (r.val + 1) (s.val + 1)

/-- A sum over the nine slots, written out in the slots' order. -/
theorem sum9 (f : Fin 9 → EReal) : ∑ t : Fin 9, f t = f 0 + f 1 + f 2 + f 3 + f 4 + f 5 + f 6 + f 7 + f 8 := by
  rw [Fin.sum_univ_castSucc, Fin.sum_univ_eight]
  rfl

/-- The padding value: the integer zero converted to a float, the one word both programs pad with. It is never
    evaluated: both sides pad with the same word. -/
abbrev zpad : EReal := FloatOps.sitofp (F := Ideal) .f32 (0#32 : BitVec 32)

/-- The result array as one function of the argument arrays. -/
def G (guide : GuideS.Idx → EReal) (hn h0 : PlaneS.Idx → EReal) (z : EReal) : PlaneS.Idx → EReal :=
  fun i => Gat guide hn h0 z (i 0) (i 2) (i 3)

end Cert.Cspn

end
-- ==== Proof.LibPadPlane.lean ====
/-
  A host `stablehlo.pad` that pads only the last two axes of a rank-4 array, with no interior padding, read at
  coordinates. The padded array at (a, b, R, C) holds the operand at (a, b, R − l₂, C − l₃) when that lands inside
  the operand — l₂ ≤ R, R − l₂ below the operand's row count, and the same for the columns — and the padding value
  everywhere else. Stated for any extents and any low / high paddings on the two padded axes, as ONE dependent `if`,
  so that two pads of the same operand with different paddings can be compared by arithmetic on the condition.
-/
import Idealize.ShloMosaic.Lib.KernelVsHost
import Idealize.ShloMosaic.Lib.ValueIdx

noncomputable section

namespace Cert.Lib

open Idealize.ShloMosaic Idealize.ShloMosaic.ValueIdx

/-- A pad of the last two axes of a rank-4 array, read at the index with coordinates `(a, b, R, C)`: the operand at
    `(a, b, R − l₂, C − l₃)` when both differences fall inside the operand's extents, the padding value otherwise. -/
theorem pad_plane_apply {α : Type} {n0 n1 H W H' W' : Nat} (l2 l3 h2 h3 : Nat)
    (x : (⟨4, ![n0, n1, H, W]⟩ : Shape).Idx → α) {u : Shape} (v : u.Idx → α)
    (h : (⟨4, ![n0, n1, H, W]⟩ : Shape).Pads ![0, 0, l2, l3] ![0, 0, h2, h3] ![0, 0, 0, 0] ⟨4, ![n0, n1, H', W']⟩)
    (hu : 0 < u.numel) (a : Fin n0) (b : Fin n1) (R : Fin H') (C : Fin W') :
    pad ⟨4, ![n0, n1, H', W']⟩ ![0, 0, l2, l3] ![0, 0, h2, h3] ![0, 0, 0, 0] x v h hu (ix4 a b R C)
      = if hin : (l2 ≤ R.val ∧ R.val - l2 < H) ∧ (l3 ≤ C.val ∧ C.val - l3 < W) then
          x (ix4 a b ⟨R.val - l2, hin.1.2⟩ ⟨C.val - l3, hin.2.2⟩)
        else v (Shape.Idx.first hu) := by
  split
  · rename_i hin
    refine pad_apply_of_inside _ _ _ x v h hu _ _ (fun d => ?_)
    match d with
    | ⟨0, _⟩ => show a.val = 0 + a.val * (0 + 1); omega
    | ⟨1, _⟩ => show b.val = 0 + b.val * (0 + 1); omega
    | ⟨2, _⟩ => show R.val = l2 + (R.val - l2) * (0 + 1); omega
    | ⟨3, _⟩ => show C.val = l3 + (C.val - l3) * (0 + 1); omega
  · rename_i hin
    by_cases hr : l2 ≤ R.val ∧ R.val - l2 < H
    · refine pad_apply_of_not_inside _ _ _ x v h hu _ (⟨3, Nat.lt_succ_self 3⟩) (fun hc => hin ⟨hr, ?_⟩)
      have hc' : l3 ≤ C.val ∧ (C.val - l3) % (0 + 1) = 0 ∧ (C.val - l3) / (0 + 1) < W := hc
      omega
    · refine pad_apply_of_not_inside _ _ _ x v h hu _ (⟨2, Nat.lt_succ_of_lt (Nat.lt_succ_self 2)⟩) (fun hc => hr ?_)
      have hc' : l2 ≤ R.val ∧ (R.val - l2) % (0 + 1) = 0 ∧ (R.val - l2) / (0 + 1) < H := hc
      omega

end Cert.Lib

end
-- ==== Proof.KernelPoint.lean ====
/-
  The kernel's result array is the specification `Cert.Cspn.G` of the argument arrays.

  One grid point per batch `b`. The point's guidance block is batch `b` of the first argument; its two source blocks
  are batch `b` of the sources padded by two on every side of the plane (the two host pads before the call), so a
  window of a padded block at offset `(2 − i, 2 − j)` read at frame position `(R, C)` is the source moved by
  `(i, j)` read at `(R, C)`: the slot the specification names. The point writes block `b` of the result, the eight
  blocks cover the result array, and so the array after the run is `G`.
-/
import proofs.«180167_j37056977830363_2_alg».proof.Proof.Gen.KernelIdeal.Frame
import proofs.«180167_j37056977830363_2_alg».proof.Proof.KernelBlock
import proofs.«180167_j37056977830363_2_alg».proof.Proof.Spec
import proofs.«180167_j37056977830363_2_alg».proof.Proof.LibPadPlane
import Idealize.ShloMosaic.Lib.StableHlo.Run
import Idealize.ShloMosaic.Lib.Pipeline.Value

noncomputable section

namespace Cert.Cspn.Kern

open Cert.KernelIdeal Cert.KernelIdeal.Gen Idealize.ShloMosaic Idealize.ShloMosaic.TcCoe Idealize.SL.Sem
open Idealize.ShloMosaic.ValueIdx Idealize.ShloMosaic.StableHlo Cert.Cspn
open Idealize.ShloMosaic.Pipeline (Dat)

variable (m : (ℓ : Loc nD τ sig) → Buf (Elt Ideal) ℓ) (ρ : Dev nD → PrngReg)

/-- The guidance weights as launched on core `c`. -/
abbrev argG (c : Dev nD) : GuideS.Idx → EReal := m ((c : Thread nD τ).loc main_arg0)
/-- The neighbours' source plane `hn` as launched. -/
abbrev argN (c : Dev nD) : PlaneS.Idx → EReal := m ((c : Thread nD τ).loc main_arg1)
/-- The centre's source plane `h0` as launched. -/
abbrev argZ (c : Dev nD) : PlaneS.Idx → EReal := m ((c : Thread nD τ).loc main_arg2)

/-! ## The index maps and the padded arrays -/

/-- Every window's block index at grid point `t` is `(t, 0, 0, 0)` (decided over the eight points). -/
theorem idx_facts : ∀ t : Fin cfg0.N,
    (win0_0.index t (0 : Fin 4) = t.val ∧ win0_0.index t (1 : Fin 4) = 0 ∧ win0_0.index t (2 : Fin 4) = 0 ∧ win0_0.index t (3 : Fin 4) = 0)
    ∧ (win0_1.index t (0 : Fin 4) = t.val ∧ win0_1.index t (1 : Fin 4) = 0 ∧ win0_1.index t (2 : Fin 4) = 0 ∧ win0_1.index t (3 : Fin 4) = 0)
    ∧ (win0_2.index t (0 : Fin 4) = t.val ∧ win0_2.index t (1 : Fin 4) = 0 ∧ win0_2.index t (2 : Fin 4) = 0 ∧ win0_2.index t (3 : Fin 4) = 0)
    ∧ (win0_3.index t (0 : Fin 4) = t.val ∧ win0_3.index t (1 : Fin 4) = 0 ∧ win0_3.index t (2 : Fin 4) = 0 ∧ win0_3.index t (3 : Fin 4) = 0) :=
  (by decide +kernel : ∀ t : Fin grid0.N, _)

/-- The first padded array as the region finds it: `hn` padded by two on each side of the plane. -/
theorem V_main_v0 (c : Dev nD) :
    (V m c main_v0 : S8x1x356x1220.Idx → EReal)
      = pad S8x1x356x1220 ![0, 0, 2, 2] ![0, 0, 2, 2] ![0, 0, 0, 0] (argN m c)
          (sitofp (F := Ideal) .f32 (constantI S_ 32 0#32)) pads_S8x1x352x1216_S8x1x356x1220_000_000_220_220 h_S_ := by
  dsimp only [V]
  simp only [hostOps0, hostOps0_1, hostOps0_2, hostOps0_3, List.flatten_cons, List.flatten_nil, List.append_nil,
    List.cons_append, List.nil_append]
  after_results
  rfl

/-- The second padded array: `h0` padded the same way. -/
theorem V_main_v1 (c : Dev nD) :
    (V m c main_v1 : S8x1x356x1220.Idx → EReal)
      = pad S8x1x356x1220 ![0, 0, 2, 2] ![0, 0, 2, 2] ![0, 0, 0, 0] (argZ m c)
          (sitofp (F := Ideal) .f32 (constantI S_ 32 0#32)) pads_S8x1x352x1216_S8x1x356x1220_000_000_220_220 h_S_ := by
  dsimp only [V]
  simp only [hostOps0, hostOps0_1, hostOps0_2, hostOps0_3, List.flatten_cons, List.flatten_nil, List.append_nil,
    List.cons_append, List.nil_append]
  after_results
  rfl

/-! ## One load of each input block, read off the arguments -/

/-- Guidance plane `k` of the point's first block at frame position `(R, C)` is the first argument at
    `(b, k, R, C)`, `b` the point's batch. -/
theorem guide_ld (c : Dev nD) (t : Fin cfg0.N) (b : Fin 8) (hb : b.val = t.val) (off : Fin 4 → Nat)
    (inb : ∀ a, off a + S1x1x354x1218.size a ≤ S1x9x354x1218.size a) (k : Fin 9)
    (h0 : off 0 = 0) (h1 : off 1 = k.val) (h2 : off 2 = 0) (h3 : off 3 = 0) (R : Fin 354) (C : Fin 1218) :
    iblk m c 0 t ((Rect.unit (s := S1x9x354x1218) off S1x1x354x1218.size inb).idx (ix4 (0 : Fin 1) (0 : Fin 1) R C))
      = argG m c (ix4 b k R C) := by
  obtain ⟨⟨e0, e1, e2, e3⟩, -⟩ := idx_facts t
  unfold iblk
  rw [View.read_apply]
  show V m c main_arg0 (((cfg0.win 0).blk t).view.emb _) = _
  rw [V_main_arg0]
  refine congrArg (m ((c : Thread nD τ).loc main_arg0)) (funext fun a => Fin.ext ?_)
  match a with
  | ⟨0, _⟩ => show win0_0.index t (0 : Fin 4) * 1 + 1 * (off 0 + 1 * 0) = b.val; rw [e0, h0, hb]; omega
  | ⟨1, _⟩ => show win0_0.index t (1 : Fin 4) * 9 + 1 * (off 1 + 1 * 0) = k.val; rw [e1, h1]; omega
  | ⟨2, _⟩ => show win0_0.index t (2 : Fin 4) * 354 + 1 * (off 2 + 1 * R.val) = R.val; rw [e2, h2]; omega
  | ⟨3, _⟩ => show win0_0.index t (3 : Fin 4) * 1218 + 1 * (off 3 + 1 * C.val) = C.val; rw [e3, h3]; omega

/-- A window of the point's padded `hn` block at offset `(2 − i, 2 − j)`, read at frame position `(R, C)`, is slot
    `k = 3 i + j` (any slot but the centre) at `(R, C)`. -/
theorem hn_ld (c : Dev nD) (t : Fin cfg0.N) (b : Fin 8) (hb : b.val = t.val) (off : Fin 4 → Nat)
    (inb : ∀ a, off a + S1x1x354x1218.size a ≤ S1x1x356x1220.size a) (k : Fin 9) (hk : k.val ≠ 4)
    (h0 : off 0 = 0) (h1 : off 1 = 0) (h2 : off 2 + k.val / 3 = 2) (h3 : off 3 + k.val % 3 = 2)
    (R : Fin 354) (C : Fin 1218) :
    iblk m c 1 t ((Rect.unit (s := S1x1x356x1220) off S1x1x354x1218.size inb).idx (ix4 (0 : Fin 1) (0 : Fin 1) R C))
      = slot (argN m c) (argZ m c) zpad k b R.val C.val := by
  obtain ⟨-, ⟨e0, e1, e2, e3⟩, ⟨f0, f1, f2, f3⟩, -⟩ := idx_facts t
  have i2 : off 2 + 354 ≤ 356 := inb 2
  have i3 : off 3 + 1218 ≤ 1220 := inb 3
  have hR : R.val < 354 := R.isLt
  have hC : C.val < 1218 := C.isLt
  unfold iblk
  rw [View.read_apply]
  show V m c main_v0 (((cfg0.win 1).blk t).view.emb _) = _
  have e : ((cfg0.win 1).blk t).view.emb
        ((Rect.unit (s := S1x1x356x1220) off S1x1x354x1218.size inb).idx (ix4 (0 : Fin 1) (0 : Fin 1) R C))
      = (ix4 b (0 : Fin 1) (⟨off 2 + R.val, by omega⟩ : Fin 356) (⟨off 3 + C.val, by omega⟩ : Fin 1220)
          : S8x1x356x1220.Idx) := by
    funext a; apply Fin.ext
    match a with
    | ⟨0, _⟩ => show win0_1.index t (0 : Fin 4) * 1 + 1 * (off 0 + 1 * 0) = b.val; rw [e0, h0, hb]; omega
    | ⟨1, _⟩ => show win0_1.index t (1 : Fin 4) * 1 + 1 * (off 1 + 1 * 0) = 0; rw [e1, h1]
    | ⟨2, _⟩ => show win0_1.index t (2 : Fin 4) * 356 + 1 * (off 2 + 1 * R.val) = off 2 + R.val; rw [e2]; omega
    | ⟨3, _⟩ => show win0_1.index t (3 : Fin 4) * 1220 + 1 * (off 3 + 1 * C.val) = off 3 + C.val; rw [e3]; omega
  rw [e, V_main_v0]
  refine (Cert.Lib.pad_plane_apply 2 2 2 2 _ _ _ h_S_ b (0 : Fin 1) _ _).trans ?_
  show shifted (argN m c) zpad b 2 2 (off 2 + R.val) (off 3 + C.val) = _
  unfold slot
  rw [if_neg hk]
  exact shifted_eq_of (by omega) (by omega)

/-- The centre slot reads the padded `h0` block at offset `(1, 1)`. -/
theorem h0_ld (c : Dev nD) (t : Fin cfg0.N) (b : Fin 8) (hb : b.val = t.val) (off : Fin 4 → Nat)
    (inb : ∀ a, off a + S1x1x354x1218.size a ≤ S1x1x356x1220.size a) (k : Fin 9) (hk : k.val = 4)
    (h0 : off 0 = 0) (h1 : off 1 = 0) (h2 : off 2 + k.val / 3 = 2) (h3 : off 3 + k.val % 3 = 2)
    (R : Fin 354) (C : Fin 1218) :
    iblk m c 2 t ((Rect.unit (s := S1x1x356x1220) off S1x1x354x1218.size inb).idx (ix4 (0 : Fin 1) (0 : Fin 1) R C))
      = slot (argN m c) (argZ m c) zpad k b R.val C.val := by
  obtain ⟨-, ⟨e0, e1, e2, e3⟩, ⟨f0, f1, f2, f3⟩, -⟩ := idx_facts t
  have i2 : off 2 + 354 ≤ 356 := inb 2
  have i3 : off 3 + 1218 ≤ 1220 := inb 3
  have hR : R.val < 354 := R.isLt
  have hC : C.val < 1218 := C.isLt
  unfold iblk
  rw [View.read_apply]
  show V m c main_v1 (((cfg0.win 2).blk t).view.emb _) = _
  have e : ((cfg0.win 2).blk t).view.emb
        ((Rect.unit (s := S1x1x356x1220) off S1x1x354x1218.size inb).idx (ix4 (0 : Fin 1) (0 : Fin 1) R C))
      = (ix4 b (0 : Fin 1) (⟨off 2 + R.val, by omega⟩ : Fin 356) (⟨off 3 + C.val, by omega⟩ : Fin 1220)
          : S8x1x356x1220.Idx) := by
    funext a; apply Fin.ext
    match a with
    | ⟨0, _⟩ => show win0_2.index t (0 : Fin 4) * 1 + 1 * (off 0 + 1 * 0) = b.val; rw [f0, h0, hb]; omega
    | ⟨1, _⟩ => show win0_2.index t (1 : Fin 4) * 1 + 1 * (off 1 + 1 * 0) = 0; rw [f1, h1]
    | ⟨2, _⟩ => show win0_2.index t (2 : Fin 4) * 356 + 1 * (off 2 + 1 * R.val) = off 2 + R.val; rw [f2]; omega
    | ⟨3, _⟩ => show win0_2.index t (3 : Fin 4) * 1220 + 1 * (off 3 + 1 * C.val) = off 3 + C.val; rw [f3]; omega
  rw [e, V_main_v1]
  refine (Cert.Lib.pad_plane_apply 2 2 2 2 _ _ _ h_S_ b (0 : Fin 1) _ _).trans ?_
  show shifted (argZ m c) zpad b 2 2 (off 2 + R.val) (off 3 + C.val) = _
  unfold slot
  rw [if_pos hk]
  exact shifted_eq_of (by omega) (by omega)

/-! ## The write-back, the cover, the array after the run -/

/-- WHAT POINT `t` WRITES BACK is block `t` of `G` of the arguments. -/
theorem flushed_eq (c : Dev nD) (t : Fin cfg0.N) :
    (dats m 0 c).flushed 3 t
      = ((cfg0.win 3).blk t).view.read (Elt Ideal) (G (argG m c) (argN m c) (argZ m c) zpad) := by
  have hN : t.val < 8 := lt_of_lt_of_eq t.isLt N_0
  obtain ⟨b, hb⟩ : ∃ b : Fin 8, b.val = t.val := ⟨⟨t.val, hN⟩, rfl⟩
  obtain ⟨-, -, -, ⟨g0, g1, g2, g3⟩⟩ := idx_facts t
  show (cfg0.win 3).cut (grid0.coords t) ((dats m 0 c).after 3 t) = _
  rw [after0_3]
  refine funext fun (y : S1x1x352x1216.Idx) => ?_
  obtain ⟨a, a', r, s, rfl⟩ : ∃ (a a' : Fin 1) (r : Fin 352) (s : Fin 1216), y = ix4 a a' r s :=
    ⟨y 0, y 1, y 2, y 3, eq_ix4 y⟩
  rw [View.read_apply]
  show out0_3 (iblk m c 0 t) (iblk m c 1 t) (iblk m c 2 t) (ix4 a a' r s)
      = G (argG m c) (argN m c) (argZ m c) zpad (((cfg0.win 3).blk t).view.emb (ix4 a a' r s))
  have e : ((cfg0.win 3).blk t).view.emb (ix4 a a' r s) = (ix4 b (0 : Fin 1) r s : S8x1x352x1216.Idx) := by
    funext d; apply Fin.ext
    have ha : a.val < 1 := a.isLt
    have ha' : a'.val < 1 := a'.isLt
    match d with
    | ⟨0, _⟩ => show win0_3.index t (0 : Fin 4) * 1 + 1 * a.val = b.val; rw [g0, hb]; omega
    | ⟨1, _⟩ => show win0_3.index t (1 : Fin 4) * 1 + 1 * a'.val = 0; rw [g1]; omega
    | ⟨2, _⟩ => show win0_3.index t (2 : Fin 4) * 352 + 1 * r.val = r.val; rw [g2]; omega
    | ⟨3, _⟩ => show win0_3.index t (3 : Fin 4) * 1216 + 1 * s.val = s.val; rw [g3]; omega
  rw [e, out_apply (iblk m c 0 t) (iblk m c 1 t) (iblk m c 2 t) a a' r s]
  rw [guide_ld m c t b hb ![0, 0, 0, 0] _ 0 rfl rfl rfl rfl (rowOf r) (colOf s),
    hn_ld m c t b hb ![0, 0, 2, 2] _ 0 (by decide) rfl rfl rfl rfl (rowOf r) (colOf s),
    guide_ld m c t b hb ![0, 1, 0, 0] _ 1 rfl rfl rfl rfl (rowOf r) (colOf s),
    hn_ld m c t b hb ![0, 0, 2, 1] _ 1 (by decide) rfl rfl rfl rfl (rowOf r) (colOf s),
    guide_ld m c t b hb ![0, 2, 0, 0] _ 2 rfl rfl rfl rfl (rowOf r) (colOf s),
    hn_ld m c t b hb ![0, 0, 2, 0] _ 2 (by decide) rfl rfl rfl rfl (rowOf r) (colOf s),
    guide_ld m c t b hb ![0, 3, 0, 0] _ 3 rfl rfl rfl rfl (rowOf r) (colOf s),
    hn_ld m c t b hb ![0, 0, 1, 2] _ 3 (by decide) rfl rfl rfl rfl (rowOf r) (colOf s),
    guide_ld m c t b hb ![0, 4, 0, 0] _ 4 rfl rfl rfl rfl (rowOf r) (colOf s),
    h0_ld m c t b hb ![0, 0, 1, 1] _ 4 rfl rfl rfl rfl rfl (rowOf r) (colOf s),
    guide_ld m c t b hb ![0, 5, 0, 0] _ 5 rfl rfl rfl rfl (rowOf r) (colOf s),
    hn_ld m c t b hb ![0, 0, 1, 0] _ 5 (by decide) rfl rfl rfl rfl (rowOf r) (colOf s),
    guide_ld m c t b hb ![0, 6, 0, 0] _ 6 rfl rfl rfl rfl (rowOf r) (colOf s),
    hn_ld m c t b hb ![0, 0, 0, 2] _ 6 (by decide) rfl rfl rfl rfl (rowOf r) (colOf s),
    guide_ld m c t b hb ![0, 7, 0, 0] _ 7 rfl rfl rfl rfl (rowOf r) (colOf s),
    hn_ld m c t b hb ![0, 0, 0, 1] _ 7 (by decide) rfl rfl rfl rfl (rowOf r) (colOf s),
    guide_ld m c t b hb ![0, 8, 0, 0] _ 8 rfl rfl rfl rfl (rowOf r) (colOf s),
    hn_ld m c t b hb ![0, 0, 0, 0] _ 8 (by decide) rfl rfl rfl rfl (rowOf r) (colOf s)]
  show _ = Gat (argG m c) (argN m c) (argZ m c) zpad b r s
  unfold Gat
  rw [sum9]

/-- An index of the result array is in point `t`'s block iff each coordinate is in the block's range. -/
theorem mem_blk (t : Fin cfg0.N) (i : S8x1x352x1216.Idx) :
    i ∈ ((cfg0.win 3).blk t).view.set ↔ ∀ a : Fin 4, win0_3.index t a * S1x1x352x1216.size a ≤ (i a).val
      ∧ (i a).val < win0_3.index t a * S1x1x352x1216.size a + S1x1x352x1216.size a := by
  show i ∈ ((View.whole main_v2).slice (win0_3.rect t)).set ↔ _
  rw [View.set_slice_whole, Rect.mem_set_unit]
  exact Iff.rfl

/-- THE ARRAY AFTER THE RUN is `G` of the arguments: batch `b` of the result is point `b`'s block. -/
theorem final (c : Dev nD) :
    (dats m 0 c).arrAt 3 cfg0.N = G (argG m c) (argN m c) (argZ m c) zpad :=
  (dats m 0 c).arrAt_eq_of_cover 3 (G (argG m c) (argN m c) (argZ m c) zpad) (fun t _ => flushed_eq m c t) fun i => by
    have hi0 : (i 0).val < 8 := (i 0).isLt
    have hi1 : (i 1).val < 1 := (i 1).isLt
    have hi2 : (i 2).val < 352 := (i 2).isLt
    have hi3 : (i 3).val < 1216 := (i 3).isLt
    have hN : (i 0).val < cfg0.N := lt_of_lt_of_eq hi0 N_0.symm
    obtain ⟨-, -, -, ⟨g0, g1, g2, g3⟩⟩ := idx_facts ⟨(i 0).val, hN⟩
    refine ⟨⟨(i 0).val, hN⟩, flush0_3 _, ?_⟩
    rw [mem_blk]
    intro a
    match a with
    | ⟨0, _⟩ =>
      show win0_3.index ⟨(i 0).val, hN⟩ (0 : Fin 4) * 1 ≤ (i 0).val ∧ (i 0).val < win0_3.index ⟨(i 0).val, hN⟩ (0 : Fin 4) * 1 + 1
      rw [g0]; show (i 0).val * 1 ≤ (i 0).val ∧ (i 0).val < (i 0).val * 1 + 1; omega
    | ⟨1, _⟩ =>
      show win0_3.index ⟨(i 0).val, hN⟩ (1 : Fin 4) * 1 ≤ (i 1).val ∧ (i 1).val < win0_3.index ⟨(i 0).val, hN⟩ (1 : Fin 4) * 1 + 1
      rw [g1]; omega
    | ⟨2, _⟩ =>
      show win0_3.index ⟨(i 0).val, hN⟩ (2 : Fin 4) * 352 ≤ (i 2).val ∧ (i 2).val < win0_3.index ⟨(i 0).val, hN⟩ (2 : Fin 4) * 352 + 352
      rw [g2]; omega
    | ⟨3, _⟩ =>
      show win0_3.index ⟨(i 0).val, hN⟩ (3 : Fin 4) * 1216 ≤ (i 3).val ∧ (i 3).val < win0_3.index ⟨(i 0).val, hN⟩ (3 : Fin 4) * 1216 + 1216
      rw [g3]; omega

/-- THE RUN, READ: every weakly fair execution of the kernel's program ends with the result array at `G` of the
    arguments as launched and the arguments unchanged — the generated frame run with its post read. -/
theorem run : θ_run defs (onTc (τ := τ) (main (F := Ideal))) ⟨m, fun _ => 0, ρ⟩ fun r => ∀ c : Dev nD,
      r.2.mem ((c : Thread nD τ).loc main_v2) = G (argG m c) (argN m c) (argZ m c) zpad
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨((h c).1 3).trans (final m c),
      ((h c).1 0).trans (((dats m 0 c).arrAt_in 0 rfl _).trans ((A_eq m c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c)⟩)
    (run_main m ρ)

end Cert.Cspn.Kern

end
-- ==== Proof.RefStages.lean ====
/-
  The reference's run, read back in two stages.

  The reference is a straight line of 51 host operations. Its first 45 build, for each of the nine slots, a source
  plane padded by the slot's own amounts with its channel axis dropped and restored; each of those nine buffers is one
  short chain of its source argument (`pre_v18` … `pre_v26`), and no operation writes the guidance weights
  (`pre_arg0`). Its last six join the nine slots, multiply by the weights, add over the slot axis, cut the frame and
  restore the channel axis; over ANY contents of the ten buffers they read, the result is that one expression of them
  (`tail_eq`). Putting the stages together, the result buffer after the whole line is the stages' composite
  `val_main_v31` of the three arguments (`after_v31`), and the arguments are unchanged.
-/
import proofs.«180167_j37056977830363_2_alg».proof.Proof.RefRunP
import proofs.«180167_j37056977830363_2_alg».proof.Proof.RefReadP

noncomputable section

namespace Cert.Cspn.RefRun

open Cert.ReferenceIdeal Cert.ReferenceIdeal.Gen Cert.ReferenceIdeal.ValueP Cert.ReferenceIdeal.ReadP
open Idealize.ShloMosaic Idealize.ShloMosaic.TcCoe Idealize.SL.Sem Idealize.ShloMosaic.StableHlo

variable {F : FTy → Type} [FloatOps F]

/-- The first 45 operations: per slot the padding value, the pad and the reshape; then the nine broadcasts. -/
abbrev pre : List (HloOp τ sig (Elt F)) := (ops (F := F)).take 45

/-- The last six operations: join, multiply, zero, add over the slot axis, cut, restore the channel axis. -/
abbrev tail : List (HloOp τ sig (Elt F)) := (ops (F := F)).drop 45

/-- The line is its two stages one after the other. -/
theorem ops_split : (ops : List (HloOp τ sig (Elt F))) = pre ++ tail := (List.take_append_drop 45 ops).symm

/-- Contents after two lines run one after the other. -/
theorem after_append (l₁ l₂ : List (HloOp τ sig (Elt F))) (V : Valuation τ sig (Elt F)) :
    after (l₁ ++ l₂) V = after l₂ (after l₁ V) := by
  induction l₁ generalizing V with
  | nil => rfl
  | cons op l ih => exact ih _

/-! ## The first stage, buffer by buffer -/

set_option maxRecDepth 8192 in
set_option maxHeartbeats 2000000 in
theorem pre_v18 (V : Valuation τ sig (Elt F)) :
    after (pre (F := F)) V (Proc.devRef .tc main_v18) = val_main_v18 (F := F) (V (Proc.devRef .tc main_arg1)) := by
  simp only [pre, ops, List.take_succ_cons, List.take_zero]
  after_results_simp
  simp only [TRef.toBuf, TRef.ofBuf, cast_eq]
  rfl

set_option maxRecDepth 8192 in
set_option maxHeartbeats 2000000 in
theorem pre_v19 (V : Valuation τ sig (Elt F)) :
    after (pre (F := F)) V (Proc.devRef .tc main_v19) = val_main_v19 (F := F) (V (Proc.devRef .tc main_arg1)) := by
  simp only [pre, ops, List.take_succ_cons, List.take_zero]
  after_results_simp
  simp only [TRef.toBuf, TRef.ofBuf, cast_eq]
  rfl

set_option maxRecDepth 8192 in
set_option maxHeartbeats 2000000 in
theorem pre_v20 (V : Valuation τ sig (Elt F)) :
    after (pre (F := F)) V (Proc.devRef .tc main_v20) = val_main_v20 (F := F) (V (Proc.devRef .tc main_arg1)) := by
  simp only [pre, ops, List.take_succ_cons, List.take_zero]
  after_results_simp
  simp only [TRef.toBuf, TRef.ofBuf, cast_eq]
  rfl

set_option maxRecDepth 8192 in
set_option maxHeartbeats 2000000 in
theorem pre_v21 (V : Valuation τ sig (Elt F)) :
    after (pre (F := F)) V (Proc.devRef .tc main_v21) = val_main_v21 (F := F) (V (Proc.devRef .tc main_arg1)) := by
  simp only [pre, ops, List.take_succ_cons, List.take_zero]
  after_results_simp
  simp only [TRef.toBuf, TRef.ofBuf, cast_eq]
  rfl

set_option maxRecDepth 8192 in
set_option maxHeartbeats 2000000 in
theorem pre_v22 (V : Valuation τ sig (Elt F)) :
    after (pre (F := F)) V (Proc.devRef .tc main_v22) = val_main_v22 (F := F) (V (Proc.devRef .tc main_arg2)) := by
  simp only [pre, ops, List.take_succ_cons, List.take_zero]
  after_results_simp
  simp only [TRef.toBuf, TRef.ofBuf, cast_eq]
  rfl

set_option maxRecDepth 8192 in
set_option maxHeartbeats 2000000 in
theorem pre_v23 (V : Valuation τ sig (Elt F)) :
    after (pre (F := F)) V (Proc.devRef .tc main_v23) = val_main_v23 (F := F) (V (Proc.devRef .tc main_arg1)) := by
  simp only [pre, ops, List.take_succ_cons, List.take_zero]
  after_results_simp
  simp only [TRef.toBuf, TRef.ofBuf, cast_eq]
  rfl

set_option maxRecDepth 8192 in
set_option maxHeartbeats 2000000 in
theorem pre_v24 (V : Valuation τ sig (Elt F)) :
    after (pre (F := F)) V (Proc.devRef .tc main_v24) = val_main_v24 (F := F) (V (Proc.devRef .tc main_arg1)) := by
  simp only [pre, ops, List.take_succ_cons, List.take_zero]
  after_results_simp
  simp only [TRef.toBuf, TRef.ofBuf, cast_eq]
  rfl

set_option maxRecDepth 8192 in
set_option maxHeartbeats 2000000 in
theorem pre_v25 (V : Valuation τ sig (Elt F)) :
    after (pre (F := F)) V (Proc.devRef .tc main_v25) = val_main_v25 (F := F) (V (Proc.devRef .tc main_arg1)) := by
  simp only [pre, ops, List.take_succ_cons, List.take_zero]
  after_results_simp
  simp only [TRef.toBuf, TRef.ofBuf, cast_eq]
  rfl

set_option maxRecDepth 8192 in
set_option maxHeartbeats 2000000 in
theorem pre_v26 (V : Valuation τ sig (Elt F)) :
    after (pre (F := F)) V (Proc.devRef .tc main_v26) = val_main_v26 (F := F) (V (Proc.devRef .tc main_arg1)) := by
  simp only [pre, ops, List.take_succ_cons, List.take_zero]
  after_results_simp
  simp only [TRef.toBuf, TRef.ofBuf, cast_eq]
  rfl

set_option maxRecDepth 8192 in
set_option maxHeartbeats 2000000 in
/-- No operation of the first stage writes the guidance weights. -/
theorem pre_arg0 (V : Valuation τ sig (Elt F)) :
    after (pre (F := F)) V (Proc.devRef .tc main_arg0) = V (Proc.devRef .tc main_arg0) := by
  simp only [pre, ops, List.take_succ_cons, List.take_zero]
  after_results_simp <;> rfl

/-! ## The second stage over any contents -/

/-- The last six operations' result, as one expression of the ten buffers they read. -/
theorem tail_eq (W : Valuation τ sig (Elt F)) :
    after (tail (F := F)) W (Proc.devRef .tc main_v31)
      = broadcastInDim S8x1x352x1216 ![0, 2, 3] bcast_S8x352x1216_S8x1x352x1216_0_2_3
          (extractStridedSlice S8x352x1216 ![0, 1, 1]
            (Host.reduceAdd
              (mulf (W (Proc.devRef .tc main_arg0))
                (concatenate S8x9x354x1218 1 [⟨S8x1x354x1218, W (Proc.devRef .tc main_v18)⟩, ⟨S8x1x354x1218, W (Proc.devRef .tc main_v19)⟩, ⟨S8x1x354x1218, W (Proc.devRef .tc main_v20)⟩, ⟨S8x1x354x1218, W (Proc.devRef .tc main_v21)⟩, ⟨S8x1x354x1218, W (Proc.devRef .tc main_v22)⟩, ⟨S8x1x354x1218, W (Proc.devRef .tc main_v23)⟩, ⟨S8x1x354x1218, W (Proc.devRef .tc main_v24)⟩, ⟨S8x1x354x1218, W (Proc.devRef .tc main_v25)⟩, ⟨S8x1x354x1218, W (Proc.devRef .tc main_v26)⟩]
                  concatenates_S8x1x354x1218_S8x1x354x1218_S8x1x354x1218_S8x1x354x1218_S8x1x354x1218_S8x1x354x1218_S8x1x354x1218_S8x1x354x1218_S8x1x354x1218_S8x9x354x1218_d1))
              (constant S_ .f32 0x00000000#32) reducesTo_S8x9x354x1218_S8x354x1218_d1 h_S_)
            slices_S8x354x1218_S8x352x1216_0_1_1) := by
  simp only [tail, ops, List.drop_succ_cons, List.drop_zero]
  after_results_simp <;> rfl

/-! ## The whole line -/

/-- THE RESULT BUFFER after the whole line is the stages' composite of the three arguments. -/
theorem after_v31 (V : Valuation τ sig (Elt F)) :
    after (ops (F := F)) V (Proc.devRef .tc main_v31)
      = val_main_v31 (F := F) (V (Proc.devRef .tc main_arg0)) (V (Proc.devRef .tc main_arg1)) (V (Proc.devRef .tc main_arg2)) := by
  rw [ops_split, after_append, tail_eq, pre_arg0, pre_v18, pre_v19, pre_v20, pre_v21, pre_v22, pre_v23, pre_v24, pre_v25,
    pre_v26]
  rfl

set_option maxRecDepth 8192 in
set_option maxHeartbeats 2000000 in
/-- No operation of the line writes an argument. -/
theorem after_args (V : Valuation τ sig (Elt F)) :
    after (ops (F := F)) V (Proc.devRef .tc main_arg0) = V (Proc.devRef .tc main_arg0)
    ∧ after (ops (F := F)) V (Proc.devRef .tc main_arg1) = V (Proc.devRef .tc main_arg1)
    ∧ after (ops (F := F)) V (Proc.devRef .tc main_arg2) = V (Proc.devRef .tc main_arg2) := by
  refine ⟨?_, ?_, ?_⟩ <;> (after_results_simp <;> rfl)

/-- THE REFERENCE'S RUN, READ: every weakly fair execution terminates with the result buffer at the composite of the
    arguments as launched, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v31)
        = val_main_v31 (F := F) (m ((c.tc : Thread nD τ).loc main_arg0)) (m ((c.tc : Thread nD τ).loc main_arg1))
            (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v31).trans (after_v31 _),
      (h c main_arg0).trans (after_args _).1, (h c main_arg1).trans (after_args _).2.1,
      (h c main_arg2).trans (after_args _).2.2⟩)
    (run_after m ρ)

end Cert.Cspn.RefRun

end
-- ==== Proof.RefRead.lean ====
/-
  The reference's result is the specification `Cert.Cspn.G`.

  The reference builds each of the nine slots by padding a source plane by its own amounts (`i` rows above, `2 − i`
  below, `j` columns left, `2 − j` right), drops and restores the channel axis, joins the nine along a new slot axis,
  multiplies by the guidance weights, adds over the slot axis from zero, and keeps the inner 352 × 1216 pixels of the
  354 × 1218 frame. Read at an index: one slot's chain at frame position `(R, C)` is the moved plane `shifted`
  (`slot_chain`); the joined stack at slot `k` is slot `k`'s chain (`stack_apply`); the sum over the slot axis from
  zero is the nine-term sum; and the cut reads frame position `(r + 1, s + 1)`.
-/
import proofs.«180167_j37056977830363_2_alg».proof.Proof.RefReadP
import proofs.«180167_j37056977830363_2_alg».proof.Proof.Spec
import proofs.«180167_j37056977830363_2_alg».proof.Proof.LibPadPlane

noncomputable section

open scoped BigOperators

namespace Cert.Cspn.Ref

open Cert.ReferenceIdeal Cert.ReferenceIdeal.Gen Cert.ReferenceIdeal.ReadP Idealize.ShloMosaic Idealize.ShloMosaic.ValueIdx Cert.Cspn

/-- ONE SLOT'S CHAIN at frame position `(R, C)` of batch `b`: a source plane padded by `l2` rows above and `l3`
    columns to the left (and `h2`, `h3` after), its channel axis dropped by the reshape and restored by the broadcast,
    is the plane moved by `(l2, l3)`. -/
theorem slot_chain (l2 l3 h2 h3 : Nat) (x : (⟨S8x1x352x1216, .f32⟩ : BufTy).Contents (Elt Ideal))
    (v : (⟨S_, .f32⟩ : BufTy).Contents (Elt Ideal))
    (hp : S8x1x352x1216.Pads ![0, 0, l2, l3] ![0, 0, h2, h3] ![0, 0, 0, 0] S8x1x354x1218)
    (b : Fin 8) (R : Fin 354) (C : Fin 1218) :
    broadcastInDim S8x1x354x1218 ![0, 2, 3] bcast_S8x354x1218_S8x1x354x1218_0_2_3
        (shapeCast S8x354x1218 (pad S8x1x354x1218 ![0, 0, l2, l3] ![0, 0, h2, h3] ![0, 0, 0, 0] x v hp h_S_)
          shapeCasts_S8x1x354x1218_S8x354x1218) (ix4 b 0 R C)
      = shifted x (v (Shape.Idx.first h_S_)) b l2 l3 R.val C.val := by
  refine (broadcastInDim_apply _ bcast_S8x354x1218_S8x1x354x1218_0_2_3 _ (ix4 b 0 R C) (ix3 b R C) (fun a => match a with
    | ⟨0, _⟩ => by show b.val = if (8 : Nat) = 1 then 0 else b.val; rw [if_neg (by decide)]
    | ⟨1, _⟩ => by show R.val = if (354 : Nat) = 1 then 0 else R.val; rw [if_neg (by decide)]
    | ⟨2, _⟩ => by show C.val = if (1218 : Nat) = 1 then 0 else C.val; rw [if_neg (by decide)])).trans ?_
  refine (shapeCast_apply _ shapeCasts_S8x1x354x1218_S8x354x1218 (ix3 b R C) (ix4 b 0 R C) (by
    rw [Shape.rowMajor_val_four, Shape.rowMajor_val_three]
    show ((b.val * 1 + 0) * 354 + R.val) * 1218 + C.val = (b.val * 354 + R.val) * 1218 + C.val
    omega)).trans ?_
  exact Cert.Lib.pad_plane_apply l2 l3 h2 h3 x v hp h_S_ b 0 R C

/-- A slot other than the centre is `hn` moved by `(k / 3, k % 3)`. -/
theorem slot_side (x1 x2 : PlaneS.Idx → EReal) (z : EReal) (k : Fin 9) (i j : Nat) (hk : k.val ≠ 4) (hi : k.val / 3 = i)
    (hj : k.val % 3 = j) (b : Fin 8) (R C : Nat) : slot x1 x2 z k b R C = shifted x1 z b i j R C := by
  unfold slot
  rw [if_neg hk, hi, hj]

/-- The centre slot is `h0` moved by `(1, 1)`. -/
theorem slot_centre (x1 x2 : PlaneS.Idx → EReal) (z : EReal) (k : Fin 9) (hk : k.val = 4) (b : Fin 8) (R C : Nat) :
    slot x1 x2 z k b R C = shifted x2 z b 1 1 R C := by
  unfold slot
  rw [if_pos hk, hk]

/-- THE JOINED STACK at slot `k`, frame position `(R, C)` of batch `b`, is slot `k`'s chain there: the piece of the
    concatenation that holds coordinate `k` of the slot axis is the `k`-th operand, read at its one channel. -/
theorem stack_apply (x1 x2 : (⟨S8x1x352x1216, .f32⟩ : BufTy).Contents (Elt Ideal)) (k : Fin 9) (b : Fin 8)
    (R : Fin 354) (C : Fin 1218) :
    val_main_v27 (F := Ideal) x1 x2 (ix4 b k R C) = slot x1 x2 zpad k b R.val C.val := by
  unfold val_main_v27
  match k with
  | ⟨0, _⟩ =>
    refine (concatenate_apply_piece (t := S8x9x354x1218) (1 : Fin 4) _ _ _ 0 ?_ S8x1x354x1218
      (val_main_v18 (F := Ideal) x1) ?_ rfl 0 ?_ (ix4 b (0 : Fin 1) R C) ?_ ?_).trans ?_
    · show (0 : Nat) < 9; decide
    · rfl
    · rfl
    · intro d hd
      match d, hd with
      | ⟨0, _⟩, _ => rfl
      | ⟨1, _⟩, hd => exact absurd rfl hd
      | ⟨2, _⟩, _ => rfl
      | ⟨3, _⟩, _ => rfl
    · rfl
    · refine (slot_chain 0 0 2 2 x1 _ _ b R C).trans ?_
      exact (slot_side x1 x2 zpad _ 0 0 (show (0 : Nat) ≠ 4 by decide) (show (0 : Nat) / 3 = 0 by decide)
        (show (0 : Nat) % 3 = 0 by decide) b R.val C.val).symm
  | ⟨1, _⟩ =>
    refine (concatenate_apply_piece (t := S8x9x354x1218) (1 : Fin 4) _ _ _ 1 ?_ S8x1x354x1218
      (val_main_v19 (F := Ideal) x1) ?_ rfl 1 ?_ (ix4 b (0 : Fin 1) R C) ?_ ?_).trans ?_
    · show (1 : Nat) < 9; decide
    · rfl
    · rfl
    · intro d hd
      match d, hd with
      | ⟨0, _⟩, _ => rfl
      | ⟨1, _⟩, hd => exact absurd rfl hd
      | ⟨2, _⟩, _ => rfl
      | ⟨3, _⟩, _ => rfl
    · rfl
    · refine (slot_chain 0 1 2 1 x1 _ _ b R C).trans ?_
      exact (slot_side x1 x2 zpad _ 0 1 (show (1 : Nat) ≠ 4 by decide) (show (1 : Nat) / 3 = 0 by decide)
        (show (1 : Nat) % 3 = 1 by decide) b R.val C.val).symm
  | ⟨2, _⟩ =>
    refine (concatenate_apply_piece (t := S8x9x354x1218) (1 : Fin 4) _ _ _ 2 ?_ S8x1x354x1218
      (val_main_v20 (F := Ideal) x1) ?_ rfl 2 ?_ (ix4 b (0 : Fin 1) R C) ?_ ?_).trans ?_
    · show (2 : Nat) < 9; decide
    · rfl
    · rfl
    · intro d hd
      match d, hd with
      | ⟨0, _⟩, _ => rfl
      | ⟨1, _⟩, hd => exact absurd rfl hd
      | ⟨2, _⟩, _ => rfl
      | ⟨3, _⟩, _ => rfl
    · rfl
    · refine (slot_chain 0 2 2 0 x1 _ _ b R C).trans ?_
      exact (slot_side x1 x2 zpad _ 0 2 (show (2 : Nat) ≠ 4 by decide) (show (2 : Nat) / 3 = 0 by decide)
        (show (2 : Nat) % 3 = 2 by decide) b R.val C.val).symm
  | ⟨3, _⟩ =>
    refine (concatenate_apply_piece (t := S8x9x354x1218) (1 : Fin 4) _ _ _ 3 ?_ S8x1x354x1218
      (val_main_v21 (F := Ideal) x1) ?_ rfl 3 ?_ (ix4 b (0 : Fin 1) R C) ?_ ?_).trans ?_
    · show (3 : Nat) < 9; decide
    · rfl
    · rfl
    · intro d hd
      match d, hd with
      | ⟨0, _⟩, _ => rfl
      | ⟨1, _⟩, hd => exact absurd rfl hd
      | ⟨2, _⟩, _ => rfl
      | ⟨3, _⟩, _ => rfl
    · rfl
    · refine (slot_chain 1 0 1 2 x1 _ _ b R C).trans ?_
      exact (slot_side x1 x2 zpad _ 1 0 (show (3 : Nat) ≠ 4 by decide) (show (3 : Nat) / 3 = 1 by decide)
        (show (3 : Nat) % 3 = 0 by decide) b R.val C.val).symm
  | ⟨4, _⟩ =>
    refine (concatenate_apply_piece (t := S8x9x354x1218) (1 : Fin 4) _ _ _ 4 ?_ S8x1x354x1218
      (val_main_v22 (F := Ideal) x2) ?_ rfl 4 ?_ (ix4 b (0 : Fin 1) R C) ?_ ?_).trans ?_
    · show (4 : Nat) < 9; decide
    · rfl
    · rfl
    · intro d hd
      match d, hd with
      | ⟨0, _⟩, _ => rfl
      | ⟨1, _⟩, hd => exact absurd rfl hd
      | ⟨2, _⟩, _ => rfl
      | ⟨3, _⟩, _ => rfl
    · rfl
    · refine (slot_chain 1 1 1 1 x2 _ _ b R C).trans ?_
      exact (slot_centre x1 x2 zpad _ (show (4 : Nat) = 4 from rfl) b R.val C.val).symm
  | ⟨5, _⟩ =>
    refine (concatenate_apply_piece (t := S8x9x354x1218) (1 : Fin 4) _ _ _ 5 ?_ S8x1x354x1218
      (val_main_v23 (F := Ideal) x1) ?_ rfl 5 ?_ (ix4 b (0 : Fin 1) R C) ?_ ?_).trans ?_
    · show (5 : Nat) < 9; decide
    · rfl
    · rfl
    · intro d hd
      match d, hd with
      | ⟨0, _⟩, _ => rfl
      | ⟨1, _⟩, hd => exact absurd rfl hd
      | ⟨2, _⟩, _ => rfl
      | ⟨3, _⟩, _ => rfl
    · rfl
    · refine (slot_chain 1 2 1 0 x1 _ _ b R C).trans ?_
      exact (slot_side x1 x2 zpad _ 1 2 (show (5 : Nat) ≠ 4 by decide) (show (5 : Nat) / 3 = 1 by decide)
        (show (5 : Nat) % 3 = 2 by decide) b R.val C.val).symm
  | ⟨6, _⟩ =>
    refine (concatenate_apply_piece (t := S8x9x354x1218) (1 : Fin 4) _ _ _ 6 ?_ S8x1x354x1218
      (val_main_v24 (F := Ideal) x1) ?_ rfl 6 ?_ (ix4 b (0 : Fin 1) R C) ?_ ?_).trans ?_
    · show (6 : Nat) < 9; decide
    · rfl
    · rfl
    · intro d hd
      match d, hd with
      | ⟨0, _⟩, _ => rfl
      | ⟨1, _⟩, hd => exact absurd rfl hd
      | ⟨2, _⟩, _ => rfl
      | ⟨3, _⟩, _ => rfl
    · rfl
    · refine (slot_chain 2 0 0 2 x1 _ _ b R C).trans ?_
      exact (slot_side x1 x2 zpad _ 2 0 (show (6 : Nat) ≠ 4 by decide) (show (6 : Nat) / 3 = 2 by decide)
        (show (6 : Nat) % 3 = 0 by decide) b R.val C.val).symm
  | ⟨7, _⟩ =>
    refine (concatenate_apply_piece (t := S8x9x354x1218) (1 : Fin 4) _ _ _ 7 ?_ S8x1x354x1218
      (val_main_v25 (F := Ideal) x1) ?_ rfl 7 ?_ (ix4 b (0 : Fin 1) R C) ?_ ?_).trans ?_
    · show (7 : Nat) < 9; decide
    · rfl
    · rfl
    · intro d hd
      match d, hd with
      | ⟨0, _⟩, _ => rfl
      | ⟨1, _⟩, hd => exact absurd rfl hd
      | ⟨2, _⟩, _ => rfl
      | ⟨3, _⟩, _ => rfl
    · rfl
    · refine (slot_chain 2 1 0 1 x1 _ _ b R C).trans ?_
      exact (slot_side x1 x2 zpad _ 2 1 (show (7 : Nat) ≠ 4 by decide) (show (7 : Nat) / 3 = 2 by decide)
        (show (7 : Nat) % 3 = 1 by decide) b R.val C.val).symm
  | ⟨8, _⟩ =>
    refine (concatenate_apply_piece (t := S8x9x354x1218) (1 : Fin 4) _ _ _ 8 ?_ S8x1x354x1218
      (val_main_v26 (F := Ideal) x1) ?_ rfl 8 ?_ (ix4 b (0 : Fin 1) R C) ?_ ?_).trans ?_
    · show (8 : Nat) < 9; decide
    · rfl
    · rfl
    · intro d hd
      match d, hd with
      | ⟨0, _⟩, _ => rfl
      | ⟨1, _⟩, hd => exact absurd rfl hd
      | ⟨2, _⟩, _ => rfl
      | ⟨3, _⟩, _ => rfl
    · rfl
    · refine (slot_chain 2 2 0 0 x1 _ _ b R C).trans ?_
      exact (slot_side x1 x2 zpad _ 2 2 (show (8 : Nat) ≠ 4 by decide) (show (8 : Nat) / 3 = 2 by decide)
        (show (8 : Nat) % 3 = 2 by decide) b R.val C.val).symm

/-- THE REFERENCE'S RESULT IS `G`: the cut reads frame position `(r + 1, s + 1)`, the sum over the slot axis from
    the float zero is the nine-term sum, each summand a guidance weight times its slot. -/
theorem ref_eq (x0 : (⟨S8x9x354x1218, .f32⟩ : BufTy).Contents (Elt Ideal))
    (x1 x2 : (⟨S8x1x352x1216, .f32⟩ : BufTy).Contents (Elt Ideal)) :
    val_main_v31 (F := Ideal) x0 x1 x2 = G x0 x1 x2 zpad := by
  funext i
  obtain ⟨b, a, r, s, rfl⟩ : ∃ (b : Fin 8) (a : Fin 1) (r : Fin 352) (s : Fin 1216), i = ix4 b a r s :=
    ⟨i 0, i 1, i 2, i 3, eq_ix4 i⟩
  rw [val_main_v31_apply, val_main_v30_apply, val_main_v29_apply, val_main_cst_apply, Ideal.ofBits_def,
    Ideal.ofBits_zero_f32, zero_add]
  show _ = Gat x0 x1 x2 zpad b r s
  unfold Gat
  refine Finset.sum_congr rfl fun k _ => ?_
  rw [val_main_v28_apply, Ideal.mulf_def]
  have e : idx_main_v29 (idx_main_v30 (idx_main_v31 (ix4 b a r s))) k
      = (ix4 b k (⟨r.val + 1, by have := r.isLt; omega⟩ : Fin 354) (⟨s.val + 1, by have := s.isLt; omega⟩ : Fin 1218)
          : S8x9x354x1218.Idx) := by
    funext d; apply Fin.ext
    match d with
    | ⟨0, _⟩ => rfl
    | ⟨1, _⟩ => rfl
    | ⟨2, _⟩ => show 1 + r.val = r.val + 1; omega
    | ⟨3, _⟩ => show 1 + s.val = s.val + 1; omega
  rw [e, stack_apply]

end Cert.Cspn.Ref

end
-- ==== Proof.lean ====
/-
  A 3 × 3 propagation step: the kernel against its jnp reference, equal over the extended reals.

  THE FUNCTION. For batch `b` and output pixel `(r, s)` of a 352 × 1216 plane, both programs compute

      out (b, r, s) = ∑ over the nine slots t = 3 i + j of  guide (b, t, r + 1, s + 1) · slot_t (b, r + 1, s + 1),

  where slot `t` is a source plane (the centre's `h0` for `t = 4`, the neighbours' `hn` otherwise) moved down by `i`
  rows and right by `j` columns inside a 354 × 1218 frame, zero-padded around. Proof/Spec.lean states it as `G`.

  THE REFERENCE pads each slot by its own amounts, stacks the nine slots, multiplies by the weights, sums over the slot
  axis and cuts the frame's border (Proof/RefStages.lean: its run read back; Proof/RefRead.lean: the result is `G`).

  THE KERNEL pads both sources once by two pixels on every side, and at each of its eight grid points (one per batch)
  reads nine windows of the padded planes — window `(2 − i, 2 − j)` is the plane moved by `(i, j)` —, multiplies each by
  its weight plane, adds the nine products in order and keeps the inner pixels (Proof/KernelPayload.lean,
  Proof/KernelBlock.lean: the stored block at a pixel; Proof/KernelPoint.lean: the block at a point is a block of `G`,
  the blocks cover the result, the run).

  WHY THEY AGREE. A moved plane read at a frame position depends only on the position minus the move, whichever pad
  and window produced it (`Cert.Cspn.shifted_eq_of`); a sum of nine extended reals does not depend on how it is
  grouped, and the reference's sum starts from zero. No law used needs finiteness, so the precondition is never
  opened. The idealization rewrote no operation: `preserves` is `True`.
-/
import proofs.«180167_j37056977830363_2_alg».proof.Defs
import proofs.«180167_j37056977830363_2_alg».proof.Proof.Gen.Kernel
import proofs.«180167_j37056977830363_2_alg».proof.Proof.Gen.Kernel.Frame
import proofs.«180167_j37056977830363_2_alg».proof.Proof.Gen.KernelIdeal
import proofs.«180167_j37056977830363_2_alg».proof.Proof.Gen.KernelIdeal.Frame
import proofs.«180167_j37056977830363_2_alg».proof.Proof.Gen.ReferenceIdeal
import proofs.«180167_j37056977830363_2_alg».proof.Proof.Gen.Pre_finite_inputs
import proofs.«180167_j37056977830363_2_alg».proof.Proof.KernelPoint
import proofs.«180167_j37056977830363_2_alg».proof.Proof.RefStages
import proofs.«180167_j37056977830363_2_alg».proof.Proof.RefRead
import Idealize.ShloMosaic.Adequacy
import Idealize.ShloMosaic.Init

noncomputable section

namespace Cert.Proof

open Idealize.ShloMosaic Idealize.SL.Sem Cert.Cspn

/-- The word-level kernel runs and leaves its arguments unchanged: the generated frame. -/
theorem frame_kernel : Cert.frame_Kernel := fun m ρ _ => Cert.Kernel.Gen.frame m ρ

/-- The idealized kernel runs and leaves its arguments unchanged: the generated frame. -/
theorem frame_kernelIdeal : Cert.frame_KernelIdeal := fun m ρ _ => Cert.KernelIdeal.Gen.frame m ρ

/-- The reference runs and leaves its arguments unchanged: its read-back run with the result dropped. -/
theorem frame_reference : Cert.frame_ReferenceIdeal := fun m ρ _ =>
  (θ_run Cert.ReferenceIdeal.defs _ _).mono (fun _ h c => (h c).2) (Cert.Cspn.RefRun.run (F := Ideal) m ρ)

/-- Both idealized programs end with the result array at `G` of the (agreeing) arguments. -/
theorem algebraic : Cert.algebraic_KernelIdeal_ReferenceIdeal := by
  intro m ρ m' ρ' _ hagree
  refine ⟨fun c => G (Kern.argG m c) (Kern.argN m c) (Kern.argZ m c) zpad, Cert.Cspn.Kern.run m ρ, ?_⟩
  refine (θ_run Cert.ReferenceIdeal.defs _ _).mono (fun _ h c => ⟨(h c).1.trans ?_, (h c).2⟩)
    (Cert.Cspn.RefRun.run (F := Ideal) m' ρ')
  rw [Cert.Cspn.Ref.ref_eq, (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
